-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S256 : Shape := ⟨1, ![256]⟩
abbrev S256x128 : Shape := ⟨2, ![256, 128]⟩
abbrev S256x1 : Shape := ⟨2, ![256, 1]⟩
abbrev S1x1 : Shape := ⟨2, ![1, 1]⟩

abbrev nBuf : Space → Nat
  | .hbm => 85
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S256, .f32⟩
  | .hbm, ⟨67, _⟩ => ⟨S100000x1, .i32⟩
  | .hbm, ⟨68, _⟩ => ⟨S256, .f32⟩
  | .hbm, ⟨69, _⟩ => ⟨S_, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S_, .f32⟩
  | .hbm, ⟨74, _⟩ => ⟨S256x128, .f32⟩
  | .hbm, ⟨75, _⟩ => ⟨S100000x1, .i32⟩
  | .hbm, ⟨76, _⟩ => ⟨S256x128, .f32⟩
  | .hbm, ⟨77, _⟩ => ⟨S256x1, .f32⟩
  | .hbm, ⟨78, _⟩ => ⟨S256x128, .f32⟩
  | .hbm, ⟨79, _⟩ => ⟨S256x128, .f32⟩
  | .hbm, ⟨80, _⟩ => ⟨S256x1, .f32⟩
  | .hbm, ⟨81, _⟩ => ⟨S1x1, .f32⟩
  | .hbm, ⟨82, _⟩ => ⟨S256x1, .f32⟩
  | .hbm, ⟨83, _⟩ => ⟨S256x1, .f32⟩
  | .hbm, ⟨84, _⟩ => ⟨S256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_call1_v0 : Ref sig .tc := ⟨.hbm, 70, rfl⟩
abbrev main_call1_v1 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S256_S100000x1_S100000_n_0_0_1_wf : ScatterDims.WF S256 S100000x1 S100000 [] [0] [0] 1
  scatter_S256x128_S100000x1_S100000x128_1_0_0_1_wf : ScatterDims.WF S256x128 S100000x1 S100000x128 [1] [0] [0] 1
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S256 : Shape := ⟨1, ![256]⟩
abbrev S256x128 : Shape := ⟨2, ![256, 128]⟩
abbrev S256x1 : Shape := ⟨2, ![256, 1]⟩
abbrev S1x1 : Shape := ⟨2, ![1, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000, .f32⟩
  | .hbm, ⟨77, _⟩ => ⟨S_, .f32⟩
  | .hbm, ⟨78, _⟩ => ⟨S256, .f32⟩
  | .hbm, ⟨79, _⟩ => ⟨S100000x1, .i32⟩
  | .hbm, ⟨80, _⟩ => ⟨S256, .f32⟩
  | .hbm, ⟨81, _⟩ => ⟨S_, .f32⟩
  | .hbm, ⟨82, _⟩ => ⟨S_, .f32⟩
  | .hbm, ⟨83, _⟩ => ⟨S256, .f32⟩
  | .hbm, ⟨84, _⟩ => ⟨S256, .f32⟩
  | .hbm, ⟨85, _⟩ => ⟨S_, .f32⟩
  | .hbm, ⟨86, _⟩ => ⟨S256x128, .f32⟩
  | .hbm, ⟨87, _⟩ => ⟨S100000x1, .i32⟩
  | .hbm, ⟨88, _⟩ => ⟨S256x128, .f32⟩
  | .hbm, ⟨89, _⟩ => ⟨S256x1, .f32⟩
  | .hbm, ⟨90, _⟩ => ⟨S256x128, .f32⟩
  | .hbm, ⟨91, _⟩ => ⟨S256x128, .f32⟩
  | .hbm, ⟨92, _⟩ => ⟨S256x1, .f32⟩
  | .hbm, ⟨93, _⟩ => ⟨S1x1, .f32⟩
  | .hbm, ⟨94, _⟩ => ⟨S256x1, .f32⟩
  | .hbm, ⟨95, _⟩ => ⟨S256x1, .f32⟩
  | .hbm, ⟨96, _⟩ => ⟨S256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call2_cst : Ref sig .tc := ⟨.hbm, 72, rfl⟩
abbrev main_call2_v0 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_call3_v0 : Ref sig .tc := ⟨.hbm, 82, rfl⟩
abbrev main_call3_v1 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S256_S100000x1_S100000_n_0_0_1_wf : ScatterDims.WF S256 S100000x1 S100000 [] [0] [0] 1
  scatter_S256x128_S100000x1_S100000x128_1_0_0_1_wf : ScatterDims.WF S256x128 S100000x1 S100000x128 [1] [0] [0] 1
  dot_S256x128_S128x1_S256x1_1_0_0_1_n_n_wf : DotDims.WF S256x128 S128x1 S256x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KernelRun.lean ====
/-
  The idealized kernel program's run with its result named: every weakly fair execution of @main terminates, nothing
  faulting, the eleven argument arrays end as launched, and the result buffer ends at what the last boundary of @main's
  fold through its host stretches and its two regions holds there.
-/
import proofs.«137997_j10488310137590_1_alg».proof.Proof.Gen.KernelIdeal.Frame

set_option maxRecDepth 16384

noncomputable section

namespace Cert.KernelIdeal.Result

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its nine segments, the last thread state read against the final state: the result buffer and
    every argument buffer hold what the last boundary's contents say. -/
theorem run_result : θ_run defs (onTc (τ := τ) (main (F := F))) ⟨m, fun _ => 0, ρ⟩ (fun r => ∀ c : Dev nD,
      r.2.mem ((c.tc : Thread nD τ).loc main_v55) = W9 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v55 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Result

end
-- ==== Proof.KernelStages.lean ====
/-
  The host side of the idealized kernel program, one stretch at a time, over ANY contents `W` of the buffers the stretch
  starts from. The program computes, once, the edge list's two rows (sources and destinations), each node's clamped
  in-degree and its reciprocal as a column; then, per layer, the neighbour sum (gather the source rows, scatter-add them at
  the destinations) times that reciprocal column — the mean over in-neighbours — which the dense region reads; and, after
  the second region, the per-graph mean of the node features followed by the final affine map.
-/
import proofs.«137997_j10488310137590_1_alg».proof.Proof.Gen.KernelIdeal.Launch
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Row 0 of the edge list: the source node of every edge. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the destination node of every edge. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Each node's in-degree, clamped below by one. -/
def degree (d : (⟨S1600000, .i32⟩ : BufTy).Contents (Elt F)) : (⟨S100000, .f32⟩ : BufTy).Contents (Elt F) :=
  maximumf (broadcastInDim S100000 ![] bcast_S_S100000 (id (constant S_ .f32 0x3F800000#32)))
    (Host.scatterAdd scatter_S100000_S1600000x1_S1600000_n_0_0_1 (broadcastInDim S100000 ![] bcast_S_S100000 (constant S_ .f32 0x00000000#32))
      (broadcastInDim S1600000x1 ![0] bcast_S1600000_S1600000x1_0 d) (broadcastInDim S1600000 ![] bcast_S_S1600000 (constant S_ .f32 0x3F800000#32)))

/-- The reciprocal of the clamped in-degree, as a column. -/
def invDegCol (d : (⟨S1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32)) (degree (F := F) d))

/-- The sum over every node's in-neighbours of their feature rows: the source rows gathered (a negative source index
    wrapped once), scatter-added at the destinations into zeros. -/
def nbrSum (s d : (⟨S1600000, .i32⟩ : BufTy).Contents (Elt F)) (h : (⟨S100000x128, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The mean over in-neighbours as this program computes it: the neighbour sum times the reciprocal column. -/
def aggMul (s d : (⟨S1600000, .i32⟩ : BufTy).Contents (Elt F)) (r : (⟨S100000x1, .f32⟩ : BufTy).Contents (Elt F)) (h : (⟨S100000x128, .f32⟩ : BufTy).Contents (Elt F)) : (⟨S100000x128, .f32⟩ : BufTy).Contents (Elt F) :=
  mulf (nbrSum (F := F) s d h) (broadcastInDim S100000x128 ![0, 1] bcast_S100000x1_S100000x128_0_1 r)

/-- What follows the second region: the per-graph mean of the node features (sum by graph over the clamped graph sizes),
    times the last weight column, plus the last bias. -/
def tail (b : (⟨S100000, .i32⟩ : BufTy).Contents (Elt F)) (wfc : (⟨S128x1, .f32⟩ : BufTy).Contents (Elt F)) (bfc : (⟨S1, .f32⟩ : BufTy).Contents (Elt F)) (h : (⟨S100000x128, .f32⟩ : BufTy).Contents (Elt F)) : (⟨S256, .f32⟩ : BufTy).Contents (Elt F) :=
  shapeCast _ (addf (Host.dotGeneral dot_S256x128_S128x1_S256x1_1_0_0_1_n_n none
      (Host.divf (Host.scatterAdd scatter_S256x128_S100000x1_S100000x128_1_0_0_1 (broadcastInDim S256x128 ![] bcast_S_S256x128 (constant S_ .f32 0x00000000#32))
          (broadcastInDim S100000x1 ![0] bcast_S100000_S100000x1_0 b) h)
        (broadcastInDim S256x128 ![0, 1] bcast_S256x1_S256x128_0_1 (broadcastInDim S256x1 ![0] bcast_S256_S256x1_0
          (maximumf (broadcastInDim S256 ![] bcast_S_S256 (id (constant S_ .f32 0x3F800000#32)))
            (Host.scatterAdd scatter_S256_S100000x1_S100000_n_0_0_1 (broadcastInDim S256 ![] bcast_S_S256 (constant S_ .f32 0x00000000#32))
              (broadcastInDim S100000x1 ![0] bcast_S100000_S100000x1_0 b) (broadcastInDim S100000 ![] bcast_S_S100000 (constant S_ .f32 0x3F800000#32)))))))
      wfc) (broadcastInDim S256x1 ![0, 1] bcast_S1x1_S256x1_0_1 (broadcastInDim S1x1 ![1] bcast_S1_S1x1_1 bfc))) shapeCasts_S256x1_S256

variable (W : Valuation τ sig (Elt F))

/-- The contents after the three stretches before the first region. -/
abbrev pre : Valuation τ sig (Elt F) := after hostOps0_2 (after hostOps0_1 (after hostOps0 W))
/-- The contents after the three stretches after the second region. -/
abbrev post : Valuation τ sig (Elt F) := after hostOps2_2 (after hostOps2_1 (after hostOps2 W))

/-! ## Before the first region -/

theorem pre_v1 : pre W (Proc.devRef .tc main_v1) = srcRow (F := F) (W (Proc.devRef .tc main_arg1)) := by
  after_results_simp <;> rfl
theorem pre_v3 : pre W (Proc.devRef .tc main_v3) = dstRow (F := F) (W (Proc.devRef .tc main_arg1)) := by
  after_results_simp <;> rfl
theorem pre_v11 : pre W (Proc.devRef .tc main_v11) = invDegCol (F := F) (dstRow (F := F) (W (Proc.devRef .tc main_arg1))) := by
  after_results_simp <;> rfl
theorem pre_v23 : pre W (Proc.devRef .tc main_v23)
    = aggMul (F := F) (srcRow (F := F) (W (Proc.devRef .tc main_arg1))) (dstRow (F := F) (W (Proc.devRef .tc main_arg1)))
        (invDegCol (F := F) (dstRow (F := F) (W (Proc.devRef .tc main_arg1)))) (W (Proc.devRef .tc main_arg0)) := by
  after_results_simp <;> rfl
theorem pre_v24 : pre W (Proc.devRef .tc main_v24) = shapeCast _ (W (Proc.devRef .tc main_arg4)) shapeCasts_S128_S1x128 := by
  after_results_simp <;> rfl
theorem pre_arg0 : pre W (Proc.devRef .tc main_arg0) = W (Proc.devRef .tc main_arg0) := by after_results_simp <;> rfl
theorem pre_arg2 : pre W (Proc.devRef .tc main_arg2) = W (Proc.devRef .tc main_arg2) := by after_results_simp <;> rfl
theorem pre_arg3 : pre W (Proc.devRef .tc main_arg3) = W (Proc.devRef .tc main_arg3) := by after_results_simp <;> rfl
theorem pre_arg5 : pre W (Proc.devRef .tc main_arg5) = W (Proc.devRef .tc main_arg5) := by after_results_simp <;> rfl
theorem pre_arg6 : pre W (Proc.devRef .tc main_arg6) = W (Proc.devRef .tc main_arg6) := by after_results_simp <;> rfl
theorem pre_arg7 : pre W (Proc.devRef .tc main_arg7) = W (Proc.devRef .tc main_arg7) := by after_results_simp <;> rfl
theorem pre_arg8 : pre W (Proc.devRef .tc main_arg8) = W (Proc.devRef .tc main_arg8) := by after_results_simp <;> rfl
theorem pre_arg9 : pre W (Proc.devRef .tc main_arg9) = W (Proc.devRef .tc main_arg9) := by after_results_simp <;> rfl
theorem pre_arg10 : pre W (Proc.devRef .tc main_arg10) = W (Proc.devRef .tc main_arg10) := by after_results_simp <;> rfl

/-! ## Between the regions -/

theorem mid_v37 : after hostOps1 W (Proc.devRef .tc main_v37)
    = aggMul (F := F) (W (Proc.devRef .tc main_v1)) (W (Proc.devRef .tc main_v3)) (W (Proc.devRef .tc main_v11)) (W (Proc.devRef .tc main_v25)) := by
  after_results_simp <;> rfl
theorem mid_v38 : after hostOps1 W (Proc.devRef .tc main_v38) = shapeCast _ (W (Proc.devRef .tc main_arg7)) shapeCasts_S128_S1x128 := by
  after_results_simp <;> rfl
theorem mid_v25 : after hostOps1 W (Proc.devRef .tc main_v25) = W (Proc.devRef .tc main_v25) := by after_results_simp <;> rfl
theorem mid_arg2 : after hostOps1 W (Proc.devRef .tc main_arg2) = W (Proc.devRef .tc main_arg2) := by after_results_simp <;> rfl
theorem mid_arg6 : after hostOps1 W (Proc.devRef .tc main_arg6) = W (Proc.devRef .tc main_arg6) := by after_results_simp <;> rfl
theorem mid_arg8 : after hostOps1 W (Proc.devRef .tc main_arg8) = W (Proc.devRef .tc main_arg8) := by after_results_simp <;> rfl
theorem mid_arg9 : after hostOps1 W (Proc.devRef .tc main_arg9) = W (Proc.devRef .tc main_arg9) := by after_results_simp <;> rfl
theorem mid_arg10 : after hostOps1 W (Proc.devRef .tc main_arg10) = W (Proc.devRef .tc main_arg10) := by after_results_simp <;> rfl

/-! ## After the second region -/

theorem post_v55 : post W (Proc.devRef .tc main_v55)
    = tail (F := F) (W (Proc.devRef .tc main_arg2)) (W (Proc.devRef .tc main_arg9)) (W (Proc.devRef .tc main_arg10)) (W (Proc.devRef .tc main_v39)) := by
  after_results_simp <;> rfl

end Cert.KernelIdeal.Stages

end
-- ==== Proof.DenseSpec.lean ====
/-
  One dense layer over the extended reals, as ONE function of the result's index: at node r and output feature c,
      max( (∑ₖ A(r,k)·Wl(k,c) + ∑ₖ H(r,k)·Wr(k,c)) + b(0,c), 0 )
  for the aggregated features A, the node features H (both 100000 × 128), the two 128 × 128 weights and the bias as a
  1 × 128 row. The zero is kept as the literal word it is printed as.
-/
import Idealize.ShloMosaic.PureOps.Ideal
import Idealize.ShloMosaic.Lib.ValueIdx

noncomputable section

open scoped BigOperators

namespace Cert.Dense

open Idealize.ShloMosaic Idealize.ShloMosaic.ValueIdx

/-- The layer's entry at node `r`, feature `c`, for operands of any row count `n`. -/
def layerAt {n : Nat} (A H : (⟨2, ![n, 128]⟩ : Shape).Idx → EReal) (Wl : (⟨2, ![128, 128]⟩ : Shape).Idx → EReal)
    (b : (⟨2, ![1, 128]⟩ : Shape).Idx → EReal) (Wr : (⟨2, ![128, 128]⟩ : Shape).Idx → EReal) (r : Fin n) (c : Fin 128) : EReal :=
  max (((∑ k : Fin 128, A (ix2 r k) * Wl (ix2 k c)) + ∑ k : Fin 128, H (ix2 r k) * Wr (ix2 k c)) + b (ix2 (0 : Fin 1) c))
    (Ideal.ofBits .f32 0x00000000#32)

/-- The layer as an array over all 100000 nodes. -/
def layer (A H : (⟨2, ![100000, 128]⟩ : Shape).Idx → EReal) (Wl : (⟨2, ![128, 128]⟩ : Shape).Idx → EReal)
    (b : (⟨2, ![1, 128]⟩ : Shape).Idx → EReal) (Wr : (⟨2, ![128, 128]⟩ : Shape).Idx → EReal) :
    (⟨2, ![100000, 128]⟩ : Shape).Idx → EReal :=
  fun i => layerAt A H Wl b Wr (⟨(i 0).val, idx2_lt0 i⟩ : Fin 100000) (⟨(i 1).val, idx2_lt1 i⟩ : Fin 128)

theorem layer_ix2 (A H : (⟨2, ![100000, 128]⟩ : Shape).Idx → EReal) (Wl : (⟨2, ![128, 128]⟩ : Shape).Idx → EReal)
    (b : (⟨2, ![1, 128]⟩ : Shape).Idx → EReal) (Wr : (⟨2, ![128, 128]⟩ : Shape).Idx → EReal) (r : Fin 100000) (c : Fin 128) :
    layer A H Wl b Wr (ix2 r c) = layerAt A H Wl b Wr r c := rfl

end Cert.Dense

end
-- ==== Proof.KernelSpec.lean ====
/-
  The two hidden layers as the kernel program computes them, as functions of the arguments: each is the one dense-layer
  function of the mean over in-neighbours (the neighbour sum times the reciprocal-degree column) and of the features
  themselves, with the layer's bias vector recast as a 1 × 128 row.
-/
import proofs.«137997_j10488310137590_1_alg».proof.Proof.KernelStages
import proofs.«137997_j10488310137590_1_alg».proof.Proof.DenseSpec

noncomputable section

namespace Cert.KernelIdeal.Result

open Cert.KernelIdeal Cert.KernelIdeal.Gen Cert.KernelIdeal.Stages Cert.Dense Idealize.ShloMosaic

/-- The first hidden layer as this program computes it. -/
def hidden1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) : (⟨S100000x128, .f32⟩ : BufTy).Contents (Elt Ideal) :=
  layer (aggMul (F := Ideal) (srcRow (F := Ideal) x1) (dstRow (F := Ideal) x1) (invDegCol (F := Ideal) (dstRow (F := Ideal) x1)) x0) x0 x3
    (shapeCast _ x4 shapeCasts_S128_S1x128) x5

/-- The second hidden layer as this program computes it, from the first. -/
def hidden2 (h1 : (⟨S100000x128, .f32⟩ : BufTy).Contents (Elt Ideal)) (x1 : (⟨S2x1600000, .i32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) : (⟨S100000x128, .f32⟩ : BufTy).Contents (Elt Ideal) :=
  layer (aggMul (F := Ideal) (srcRow (F := Ideal) x1) (dstRow (F := Ideal) x1) (invDegCol (F := Ideal) (dstRow (F := Ideal) x1)) h1) h1 x6
    (shapeCast _ x7 shapeCasts_S128_S1x128) x8

end Cert.KernelIdeal.Result

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.DensePayload.lean ====
/-
  What the dense kernel's body stores, read at an entry (p, q) of its 5000 × 128 block: the two products into zero
  accumulators are plain sums over the 128 contracted coordinates (the roundings to bf16 on the way in are the identity on
  extended reals), the bias row is read at column q whatever the row, and the rectifier is the maximum with the zero word.
-/
import proofs.«137997_j10488310137590_1_alg».proof.Proof.Gen.KernelIdeal.Skeleton
import proofs.«137997_j10488310137590_1_alg».proof.Proof.LibPlainDot
import proofs.«137997_j10488310137590_1_alg».proof.Proof.DenseSpec
import Idealize.ShloMosaic.Lib.Pipeline.Value
import Idealize.ShloMosaic.Lib.ValueLayout

noncomputable section

open scoped BigOperators

namespace Cert.KernelIdeal.DensePay

open Cert.KernelIdeal Cert.KernelIdeal.Gen Idealize.ShloMosaic Idealize.ShloMosaic.ValueIdx Cert.Dense

/-- A product of a 5000 × 128 block and a 128 × 128 weight, both rounded to bf16, into the zero accumulator. -/
theorem mm_at (x : FVec Ideal S5000x128 .f32) (w : FVec Ideal S128x128 .f32) (p : Fin 5000) (q : Fin 128) :
    matmul (F := Ideal) dot_S5000x128_S128x128_S5000x128_1_0_0_1_n_n none (truncf .bf16 x bitsLt_bf16_f32) (truncf .bf16 w bitsLt_bf16_f32)
        (constant (F := Ideal) S5000x128 .f32 0x00000000#32) (ix2 p q)
      = ∑ k : Fin 128, x (ix2 p k) * w (ix2 k q) :=
  PlainDot.matmul_zero_apply (M := 5000) (K := 128) (N := 128) none (truncf .bf16 x bitsLt_bf16_f32) (truncf .bf16 w bitsLt_bf16_f32) p q

/-- The first region's payload at (p, q). -/
theorem pay0_at (v0 v3 : Vec Ideal S5000x128 .f32) (v5 v7 : Vec Ideal S128x128 .f32) (v12 : Vec Ideal S1x128 .f32)
    (p : Fin 5000) (q : Fin 128) :
    k0_pay1 (F := Ideal) v0 v3 v5 v7 v12 (ix2 p q) = layerAt v0 v3 v5 v12 v7 p q := by
  unfold k0_pay1 layerAt
  simp only [shapeCast_self]
  show max ((_ + _) + _) _ = _
  refine congrArg₂ max (congrArg₂ (· + ·) (congrArg₂ (· + ·) (mm_at v0 v5 p q) (mm_at v3 v7 p q)) ?_) rfl
  exact broadcastTo_1b_ab_apply v12 broadcasts_S1x128_S5000x128 p q

/-- The second region's payload at (p, q). -/
theorem pay1_at (v0 v3 : Vec Ideal S5000x128 .f32) (v6 v8 : Vec Ideal S128x128 .f32) (v13 : Vec Ideal S1x128 .f32)
    (p : Fin 5000) (q : Fin 128) :
    k1_pay1 (F := Ideal) v0 v3 v6 v8 v13 (ix2 p q) = layerAt v0 v3 v6 v13 v8 p q := by
  unfold k1_pay1 layerAt
  simp only [shapeCast_self]
  show max ((_ + _) + _) _ = _
  refine congrArg₂ max (congrArg₂ (· + ·) (congrArg₂ (· + ·) (mm_at v0 v6 p q) (mm_at v3 v8 p q)) ?_) rfl
  exact broadcastTo_1b_ab_apply v13 broadcasts_S1x128_S5000x128 p q

end Cert.KernelIdeal.DensePay

end
-- ==== Proof.DenseRegion0.lean ====
/-
  Region 0 of the idealized kernel program writes one dense layer: its output array ends holding, at node r and feature
  c, the layer's entry of the arrays the region finds — the aggregated features and the node features read 5000 rows at a
  time (block t of the grid is rows 5000·t … 5000·t + 4999), the two weights and the bias row read whole at every point.
  Point t writes back block t of that one function, and the twenty blocks tile the 100000 rows.
-/
import proofs.«137997_j10488310137590_1_alg».proof.Proof.Gen.KernelIdeal.Frame
import proofs.«137997_j10488310137590_1_alg».proof.Proof.DensePayload

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Cert.Dense
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output sit at block row t, column block 0;
    the weights and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 := lt_of_lt_of_eq t.isLt N_0

/-- Row p of block t is row 5000·t + p of the array. -/
def row (t : Fin cfg0.N) (p : Fin 5000) : Fin 100000 :=
  ⟨t.val * 5000 + p.val, by have := t_lt t; have := p.isLt; omega⟩

theorem read0 (c : Dev nD) (t : Fin cfg0.N) (p : Fin 5000) (k : Fin 128) :
    iblk0 V c 0 t (ix2 p k) = V c main_v23 (ix2 (row t p) k) := by
  obtain ⟨e00, e01, -⟩ := idx_facts t
  show V c main_v23 (((cfg0.win 0).blk t).view.emb (ix2 p k)) = V c main_v23 (ix2 (row t p) k)
  refine congrArg (V c main_v23) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem read1 (c : Dev nD) (t : Fin cfg0.N) (p : Fin 5000) (k : Fin 128) :
    iblk0 V c 1 t (ix2 p k) = V c main_arg0 (ix2 (row t p) k) := by
  obtain ⟨-, -, e10, e11, -⟩ := idx_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem read2 (c : Dev nD) (t : Fin cfg0.N) (k q : Fin 128) :
    iblk0 V c 2 t (ix2 k q) = V c main_arg3 (ix2 k q) := by
  obtain ⟨-, -, -, -, e20, e21, -⟩ := idx_facts t
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read3 (c : Dev nD) (t : Fin cfg0.N) (q : Fin 128) :
    iblk0 V c 3 t (ix2 (0 : Fin 1) q) = V c main_v24 (ix2 (0 : Fin 1) q) := by
  obtain ⟨-, -, -, -, -, -, e30, e31, -⟩ := idx_facts t
  show V c main_v24 (((cfg0.win 3).blk t).view.emb (ix2 (0 : Fin 1) q)) = V c main_v24 (ix2 (0 : Fin 1) q)
  refine congrArg (V c main_v24) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

theorem read4 (c : Dev nD) (t : Fin cfg0.N) (k q : Fin 128) :
    iblk0 V c 4 t (ix2 k q) = V c main_arg5 (ix2 k q) := by
  obtain ⟨-, -, -, -, -, -, -, -, e40, e41, -⟩ := idx_facts t
  show V c main_arg5 (((cfg0.win 4).blk t).view.emb (ix2 k q)) = V c main_arg5 (ix2 k q)
  refine congrArg (V c main_arg5) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Entry (p, q) of the output's block t is entry (5000·t + p, q) of the array. -/
theorem emb5 (t : Fin cfg0.N) (p : Fin 5000) (q : Fin 128) :
    ((cfg0.win 5).blk t).view.emb (ix2 p q) = ix2 (row t p) q := by
  obtain ⟨-, -, -, -, -, -, -, -, -, -, e50, e51⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- What point t writes back is block t of the layer of the arrays the region finds. -/
theorem flushed_eq (c : Dev nD) (t : Fin cfg0.N) :
    (dat0 V c).flushed 5 t = ((cfg0.win 5).blk t).view.read (Elt Ideal)
      (layer (V c main_v23) (V c main_arg0) (V c main_arg3) (V c main_v24) (V c main_arg5)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = layer (V c main_v23) (V c main_arg0) (V c main_arg3) (V c main_v24) (V c main_arg5) (((cfg0.win 5).blk t).view.emb (ix2 p q))
  refine (DensePay.pay0_at (iblk0 V c 0 t) (iblk0 V c 1 t) (iblk0 V c 2 t) (iblk0 V c 4 t) (iblk0 V c 3 t) p q).trans ?_
  rw [emb5 t p q, layer_ix2]
  unfold layerAt
  refine congrArg₂ max (congrArg₂ (· + ·) (congrArg₂ (· + ·) (Finset.sum_congr rfl fun k _ => ?_) (Finset.sum_congr rfl fun k _ => ?_)) ?_) rfl
  · rw [read0 V c t p k, read2 V c t k q]
  · rw [read1 V c t p k, read4 V c t k q]
  · exact read3 V c t q

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every index of the array is in the block of the point its row falls in: row r is in block r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The region's output array after the region: the dense layer of the arrays the region finds. -/
theorem final (c : Dev nD) :
    (dat0 V c).arrAt 5 cfg0.N = layer (V c main_v23) (V c main_arg0) (V c main_arg3) (V c main_v24) (V c main_arg5) :=
  (dat0 V c).arrAt_eq_of_cover 5 _ (fun t _ => flushed_eq V c t) (cover)

end Cert.KernelIdeal.Region0

end
-- ==== Proof.DenseRegion1.lean ====
/-
  Region 1 of the idealized kernel program writes one dense layer: its output array ends holding, at node r and feature
  c, the layer's entry of the arrays the region finds — the aggregated features and the node features read 5000 rows at a
  time (block t of the grid is rows 5000·t … 5000·t + 4999), the two weights and the bias row read whole at every point.
  Point t writes back block t of that one function, and the twenty blocks tile the 100000 rows.
-/
import proofs.«137997_j10488310137590_1_alg».proof.Proof.Gen.KernelIdeal.Frame
import proofs.«137997_j10488310137590_1_alg».proof.Proof.DensePayload

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Cert.Dense
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output sit at block row t, column block 0;
    the weights and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 20 := lt_of_lt_of_eq t.isLt N_1

/-- Row p of block t is row 5000·t + p of the array. -/
def row (t : Fin cfg1.N) (p : Fin 5000) : Fin 100000 :=
  ⟨t.val * 5000 + p.val, by have := t_lt t; have := p.isLt; omega⟩

theorem read0 (c : Dev nD) (t : Fin cfg1.N) (p : Fin 5000) (k : Fin 128) :
    iblk1 V c 0 t (ix2 p k) = V c main_v37 (ix2 (row t p) k) := by
  obtain ⟨e00, e01, -⟩ := idx_facts t
  show V c main_v37 (((cfg1.win 0).blk t).view.emb (ix2 p k)) = V c main_v37 (ix2 (row t p) k)
  refine congrArg (V c main_v37) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem read1 (c : Dev nD) (t : Fin cfg1.N) (p : Fin 5000) (k : Fin 128) :
    iblk1 V c 1 t (ix2 p k) = V c main_v25 (ix2 (row t p) k) := by
  obtain ⟨-, -, e10, e11, -⟩ := idx_facts t
  show V c main_v25 (((cfg1.win 1).blk t).view.emb (ix2 p k)) = V c main_v25 (ix2 (row t p) k)
  refine congrArg (V c main_v25) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem read2 (c : Dev nD) (t : Fin cfg1.N) (k q : Fin 128) :
    iblk1 V c 2 t (ix2 k q) = V c main_arg6 (ix2 k q) := by
  obtain ⟨-, -, -, -, e20, e21, -⟩ := idx_facts t
  show V c main_arg6 (((cfg1.win 2).blk t).view.emb (ix2 k q)) = V c main_arg6 (ix2 k q)
  refine congrArg (V c main_arg6) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem read3 (c : Dev nD) (t : Fin cfg1.N) (q : Fin 128) :
    iblk1 V c 3 t (ix2 (0 : Fin 1) q) = V c main_v38 (ix2 (0 : Fin 1) q) := by
  obtain ⟨-, -, -, -, -, -, e30, e31, -⟩ := idx_facts t
  show V c main_v38 (((cfg1.win 3).blk t).view.emb (ix2 (0 : Fin 1) q)) = V c main_v38 (ix2 (0 : Fin 1) q)
  refine congrArg (V c main_v38) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem read4 (c : Dev nD) (t : Fin cfg1.N) (k q : Fin 128) :
    iblk1 V c 4 t (ix2 k q) = V c main_arg8 (ix2 k q) := by
  obtain ⟨-, -, -, -, -, -, -, -, e40, e41, -⟩ := idx_facts t
  show V c main_arg8 (((cfg1.win 4).blk t).view.emb (ix2 k q)) = V c main_arg8 (ix2 k q)
  refine congrArg (V c main_arg8) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- Entry (p, q) of the output's block t is entry (5000·t + p, q) of the array. -/
theorem emb5 (t : Fin cfg1.N) (p : Fin 5000) (q : Fin 128) :
    ((cfg1.win 5).blk t).view.emb (ix2 p q) = ix2 (row t p) q := by
  obtain ⟨-, -, -, -, -, -, -, -, -, -, e50, e51⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-- What point t writes back is block t of the layer of the arrays the region finds. -/
theorem flushed_eq (c : Dev nD) (t : Fin cfg1.N) :
    (dat1 V c).flushed 5 t = ((cfg1.win 5).blk t).view.read (Elt Ideal)
      (layer (V c main_v37) (V c main_v25) (V c main_arg6) (V c main_v38) (V c main_arg8)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = layer (V c main_v37) (V c main_v25) (V c main_arg6) (V c main_v38) (V c main_arg8) (((cfg1.win 5).blk t).view.emb (ix2 p q))
  refine (DensePay.pay1_at (iblk1 V c 0 t) (iblk1 V c 1 t) (iblk1 V c 2 t) (iblk1 V c 4 t) (iblk1 V c 3 t) p q).trans ?_
  rw [emb5 t p q, layer_ix2]
  unfold layerAt
  refine congrArg₂ max (congrArg₂ (· + ·) (congrArg₂ (· + ·) (Finset.sum_congr rfl fun k _ => ?_) (Finset.sum_congr rfl fun k _ => ?_)) ?_) rfl
  · rw [read0 V c t p k, read2 V c t k q]
  · rw [read1 V c t p k, read4 V c t k q]
  · exact read3 V c t q

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- Every index of the array is in the block of the point its row falls in: row r is in block r / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e50, e51⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The region's output array after the region: the dense layer of the arrays the region finds. -/
theorem final (c : Dev nD) :
    (dat1 V c).arrAt 5 cfg1.N = layer (V c main_v37) (V c main_v25) (V c main_arg6) (V c main_v38) (V c main_arg8) :=
  (dat1 V c).arrAt_eq_of_cover 5 _ (fun t _ => flushed_eq V c t) (cover)

end Cert.KernelIdeal.Region1

end
-- ==== Proof.KernelValue.lean ====
/-
  What the idealized kernel program's result buffer holds at the end, as one function of the eleven arguments: follow the
  buffers through @main's boundaries. Before the first region the host computes the edge rows, the reciprocal-degree column
  and the first mean over in-neighbours; the first region writes the first dense layer; between the regions the host takes
  the mean over in-neighbours of that layer's output; the second region writes the second dense layer of it; the tail pools
  by graph and applies the last affine map. No host stretch and no region writes an argument.
-/
import proofs.«137997_j10488310137590_1_alg».proof.Proof.KernelRun
import proofs.«137997_j10488310137590_1_alg».proof.Proof.KernelStages
import proofs.«137997_j10488310137590_1_alg».proof.Proof.KernelSpec
import proofs.«137997_j10488310137590_1_alg».proof.Proof.DenseRegion0
import proofs.«137997_j10488310137590_1_alg».proof.Proof.DenseRegion1

set_option maxRecDepth 16384

noncomputable section

namespace Cert.KernelIdeal.Result

open Cert.KernelIdeal Cert.KernelIdeal.Gen Cert.KernelIdeal.Stages Cert.Dense
open Idealize.ShloMosaic Idealize.ShloMosaic.TcCoe Idealize.SL.Sem

variable (m : (ℓ : Loc nD τ sig) → Buf (Elt Ideal) ℓ) (ρ : Dev nD → PrngReg) (c : Dev nD)

/-! ## At the first region's entry -/

theorem e3_v1 : W3 m ρ c (Proc.devRef .tc main_v1) = srcRow (F := Ideal) (m ((c.tc : Thread nD τ).loc main_arg1)) := pre_v1 (W0 m ρ c)
theorem e3_v3 : W3 m ρ c (Proc.devRef .tc main_v3) = dstRow (F := Ideal) (m ((c.tc : Thread nD τ).loc main_arg1)) := pre_v3 (W0 m ρ c)
theorem e3_v11 : W3 m ρ c (Proc.devRef .tc main_v11)
    = invDegCol (F := Ideal) (dstRow (F := Ideal) (m ((c.tc : Thread nD τ).loc main_arg1))) := pre_v11 (W0 m ρ c)
theorem e3_v23 : W3 m ρ c (Proc.devRef .tc main_v23)
    = aggMul (F := Ideal) (srcRow (F := Ideal) (m ((c.tc : Thread nD τ).loc main_arg1))) (dstRow (F := Ideal) (m ((c.tc : Thread nD τ).loc main_arg1)))
        (invDegCol (F := Ideal) (dstRow (F := Ideal) (m ((c.tc : Thread nD τ).loc main_arg1)))) (m ((c.tc : Thread nD τ).loc main_arg0)) :=
  pre_v23 (W0 m ρ c)
theorem e3_v24 : W3 m ρ c (Proc.devRef .tc main_v24) = shapeCast _ (m ((c.tc : Thread nD τ).loc main_arg4)) shapeCasts_S128_S1x128 :=
  pre_v24 (W0 m ρ c)
theorem e3_arg0 : W3 m ρ c (Proc.devRef .tc main_arg0) = m ((c.tc : Thread nD τ).loc main_arg0) := pre_arg0 (W0 m ρ c)
theorem e3_arg2 : W3 m ρ c (Proc.devRef .tc main_arg2) = m ((c.tc : Thread nD τ).loc main_arg2) := pre_arg2 (W0 m ρ c)
theorem e3_arg3 : W3 m ρ c (Proc.devRef .tc main_arg3) = m ((c.tc : Thread nD τ).loc main_arg3) := pre_arg3 (W0 m ρ c)
theorem e3_arg5 : W3 m ρ c (Proc.devRef .tc main_arg5) = m ((c.tc : Thread nD τ).loc main_arg5) := pre_arg5 (W0 m ρ c)
theorem e3_arg6 : W3 m ρ c (Proc.devRef .tc main_arg6) = m ((c.tc : Thread nD τ).loc main_arg6) := pre_arg6 (W0 m ρ c)
theorem e3_arg7 : W3 m ρ c (Proc.devRef .tc main_arg7) = m ((c.tc : Thread nD τ).loc main_arg7) := pre_arg7 (W0 m ρ c)
theorem e3_arg8 : W3 m ρ c (Proc.devRef .tc main_arg8) = m ((c.tc : Thread nD τ).loc main_arg8) := pre_arg8 (W0 m ρ c)
theorem e3_arg9 : W3 m ρ c (Proc.devRef .tc main_arg9) = m ((c.tc : Thread nD τ).loc main_arg9) := pre_arg9 (W0 m ρ c)
theorem e3_arg10 : W3 m ρ c (Proc.devRef .tc main_arg10) = m ((c.tc : Thread nD τ).loc main_arg10) := pre_arg10 (W0 m ρ c)

/-! ## At the first region's exit -/

/-- The first region leaves the first hidden layer in its output array. -/
theorem x4_v25 : W4 m ρ c (Proc.devRef .tc main_v25)
    = hidden1 (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)) := by
  refine ((W4_arr m ρ c 5).trans (Region0.final (V3 m ρ) c)).trans ?_
  show layer (W3 m ρ c (Proc.devRef .tc main_v23)) (W3 m ρ c (Proc.devRef .tc main_arg0)) (W3 m ρ c (Proc.devRef .tc main_arg3))
      (W3 m ρ c (Proc.devRef .tc main_v24)) (W3 m ρ c (Proc.devRef .tc main_arg5)) = _
  rw [e3_v23, e3_arg0, e3_arg3, e3_v24, e3_arg5]
  rfl

theorem x4_v1 : W4 m ρ c (Proc.devRef .tc main_v1) = srcRow (F := Ideal) (m ((c.tc : Thread nD τ).loc main_arg1)) :=
  (W4_of_ne m ρ c main_v1 (by decide)).trans (e3_v1 m ρ c)
theorem x4_v3 : W4 m ρ c (Proc.devRef .tc main_v3) = dstRow (F := Ideal) (m ((c.tc : Thread nD τ).loc main_arg1)) :=
  (W4_of_ne m ρ c main_v3 (by decide)).trans (e3_v3 m ρ c)
theorem x4_v11 : W4 m ρ c (Proc.devRef .tc main_v11)
    = invDegCol (F := Ideal) (dstRow (F := Ideal) (m ((c.tc : Thread nD τ).loc main_arg1))) :=
  (W4_of_ne m ρ c main_v11 (by decide)).trans (e3_v11 m ρ c)
theorem x4_arg2 : W4 m ρ c (Proc.devRef .tc main_arg2) = m ((c.tc : Thread nD τ).loc main_arg2) :=
  (W4_of_ne m ρ c main_arg2 (by decide)).trans (e3_arg2 m ρ c)
theorem x4_arg6 : W4 m ρ c (Proc.devRef .tc main_arg6) = m ((c.tc : Thread nD τ).loc main_arg6) :=
  (W4_of_ne m ρ c main_arg6 (by decide)).trans (e3_arg6 m ρ c)
theorem x4_arg7 : W4 m ρ c (Proc.devRef .tc main_arg7) = m ((c.tc : Thread nD τ).loc main_arg7) :=
  (W4_of_ne m ρ c main_arg7 (by decide)).trans (e3_arg7 m ρ c)
theorem x4_arg8 : W4 m ρ c (Proc.devRef .tc main_arg8) = m ((c.tc : Thread nD τ).loc main_arg8) :=
  (W4_of_ne m ρ c main_arg8 (by decide)).trans (e3_arg8 m ρ c)
theorem x4_arg9 : W4 m ρ c (Proc.devRef .tc main_arg9) = m ((c.tc : Thread nD τ).loc main_arg9) :=
  (W4_of_ne m ρ c main_arg9 (by decide)).trans (e3_arg9 m ρ c)
theorem x4_arg10 : W4 m ρ c (Proc.devRef .tc main_arg10) = m ((c.tc : Thread nD τ).loc main_arg10) :=
  (W4_of_ne m ρ c main_arg10 (by decide)).trans (e3_arg10 m ρ c)

/-! ## At the second region's entry -/

theorem e5_v37 : W5 m ρ c (Proc.devRef .tc main_v37)
    = aggMul (F := Ideal) (srcRow (F := Ideal) (m ((c.tc : Thread nD τ).loc main_arg1))) (dstRow (F := Ideal) (m ((c.tc : Thread nD τ).loc main_arg1)))
        (invDegCol (F := Ideal) (dstRow (F := Ideal) (m ((c.tc : Thread nD τ).loc main_arg1))))
        (hidden1 (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5))) := by
  refine (mid_v37 (W4 m ρ c)).trans ?_
  rw [x4_v1, x4_v3, x4_v11, x4_v25]
theorem e5_v38 : W5 m ρ c (Proc.devRef .tc main_v38) = shapeCast _ (m ((c.tc : Thread nD τ).loc main_arg7)) shapeCasts_S128_S1x128 := by
  refine (mid_v38 (W4 m ρ c)).trans ?_
  rw [x4_arg7]
theorem e5_v25 : W5 m ρ c (Proc.devRef .tc main_v25)
    = hidden1 (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)) :=
  (mid_v25 (W4 m ρ c)).trans (x4_v25 m ρ c)
theorem e5_arg2 : W5 m ρ c (Proc.devRef .tc main_arg2) = m ((c.tc : Thread nD τ).loc main_arg2) :=
  (mid_arg2 (W4 m ρ c)).trans (x4_arg2 m ρ c)
theorem e5_arg6 : W5 m ρ c (Proc.devRef .tc main_arg6) = m ((c.tc : Thread nD τ).loc main_arg6) :=
  (mid_arg6 (W4 m ρ c)).trans (x4_arg6 m ρ c)
theorem e5_arg8 : W5 m ρ c (Proc.devRef .tc main_arg8) = m ((c.tc : Thread nD τ).loc main_arg8) :=
  (mid_arg8 (W4 m ρ c)).trans (x4_arg8 m ρ c)
theorem e5_arg9 : W5 m ρ c (Proc.devRef .tc main_arg9) = m ((c.tc : Thread nD τ).loc main_arg9) :=
  (mid_arg9 (W4 m ρ c)).trans (x4_arg9 m ρ c)
theorem e5_arg10 : W5 m ρ c (Proc.devRef .tc main_arg10) = m ((c.tc : Thread nD τ).loc main_arg10) :=
  (mid_arg10 (W4 m ρ c)).trans (x4_arg10 m ρ c)

/-! ## At the second region's exit -/

/-- The second region leaves the second hidden layer in its output array. -/
theorem x6_v39 : W6 m ρ c (Proc.devRef .tc main_v39)
    = hidden2 (hidden1 (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)))
        (m ((c.tc : Thread nD τ).loc main_arg1)) (m ((c.tc : Thread nD τ).loc main_arg6)) (m ((c.tc : Thread nD τ).loc main_arg7))
        (m ((c.tc : Thread nD τ).loc main_arg8)) := by
  refine ((W6_arr m ρ c 5).trans (Region1.final (V5 m ρ) c)).trans ?_
  show layer (W5 m ρ c (Proc.devRef .tc main_v37)) (W5 m ρ c (Proc.devRef .tc main_v25)) (W5 m ρ c (Proc.devRef .tc main_arg6))
      (W5 m ρ c (Proc.devRef .tc main_v38)) (W5 m ρ c (Proc.devRef .tc main_arg8)) = _
  rw [e5_v37, e5_v25, e5_arg6, e5_v38, e5_arg8]
  rfl

theorem x6_arg2 : W6 m ρ c (Proc.devRef .tc main_arg2) = m ((c.tc : Thread nD τ).loc main_arg2) :=
  (W6_of_ne m ρ c main_arg2 (by decide)).trans (e5_arg2 m ρ c)
theorem x6_arg9 : W6 m ρ c (Proc.devRef .tc main_arg9) = m ((c.tc : Thread nD τ).loc main_arg9) :=
  (W6_of_ne m ρ c main_arg9 (by decide)).trans (e5_arg9 m ρ c)
theorem x6_arg10 : W6 m ρ c (Proc.devRef .tc main_arg10) = m ((c.tc : Thread nD τ).loc main_arg10) :=
  (W6_of_ne m ρ c main_arg10 (by decide)).trans (e5_arg10 m ρ c)

/-! ## The result -/

/-- The result buffer at the last boundary: the tail of the second hidden layer. -/
theorem result_eq : W9 m ρ c (Proc.devRef .tc main_v55)
    = tail (F := Ideal) (m ((c.tc : Thread nD τ).loc main_arg2)) (m ((c.tc : Thread nD τ).loc main_arg9)) (m ((c.tc : Thread nD τ).loc main_arg10))
        (hidden2 (hidden1 (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5)))
          (m ((c.tc : Thread nD τ).loc main_arg1)) (m ((c.tc : Thread nD τ).loc main_arg6)) (m ((c.tc : Thread nD τ).loc main_arg7))
          (m ((c.tc : Thread nD τ).loc main_arg8))) := by
  refine (post_v55 (W6 m ρ c)).trans ?_
  rw [x6_arg2, x6_arg9, x6_arg10, x6_v39]

end Cert.KernelIdeal.Result

end
-- ==== Proof.LibHostRow.lean ====
/-
  A bias row on the host: a length-n vector placed as the one row of a 1×n matrix (`broadcast_in_dim` with dims = [1]) and
  that row repeated down m rows (`broadcast_in_dim` with dims = [0, 1]) reads, at (r, c), the vector at c — the entry does
  not depend on the row r. General: any element type, any extents.
-/
import Idealize.ShloMosaic.Lib.Pipeline.Value
import Idealize.ShloMosaic.Lib.ValueIdx
import Idealize.ShloMosaic.Lib.KernelVsHost

namespace Cert.Lib.HostRow

open Idealize.ShloMosaic Idealize.ShloMosaic.ValueIdx

variable {α : Type}

/-- A length-n vector broadcast to 1×n along its own axis reads, at (u, c), the vector at c. -/
theorem vector_as_row_apply {n : ℕ} (h : (⟨1, ![n]⟩ : Shape).BroadcastsInDim ⟨2, ![1, n]⟩ ![1])
    (v : (⟨1, ![n]⟩ : Shape).Idx → α) (u : Fin 1) (c : Fin n) :
    broadcastInDim ⟨2, ![1, n]⟩ ![1] h v (ix2 u c) = v (ix1 c) := by
  refine broadcastInDim_apply ![1] h v (ix2 u c) (ix1 c) fun a => ?_
  match a with
  | ⟨0, _⟩ =>
    show c.val = if n = 1 then 0 else c.val
    split
    · have := c.isLt; omega
    · rfl

/-- A length-n vector broadcast to 1×n and then down m rows reads, at (r, c), the vector at c. -/
theorem row_down_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (r : Fin m) (c : Fin n) :
    broadcastInDim ⟨2, ![m, n]⟩ ![0, 1] h2 (broadcastInDim ⟨2, ![1, n]⟩ ![1] h1 v) (ix2 r c) = v (ix1 c) :=
  (broadcastInDim_oneRow_apply h2 _ r c).trans (vector_as_row_apply h1 v 0 c)

end Cert.Lib.HostRow
-- ==== Proof.RefLayer.lean ====
/-
  The reference's dense layer. On the host the layer is spelt  max( (A·Wl + bias rows) + H·Wr , 0 )  with the bias vector
  made a row and repeated down the 100000 rows and the zero a broadcast scalar. Read at (r, c): the two products are the
  plain sums over the 128 contracted coordinates, the bias rows read the vector at c, and the sum of three terms is
  re-associated — addition of extended reals is commutative and associative, infinities included — into the order the
  kernel adds them in. So the host's layer is the one function `Cert.Dense.layer`, with the bias as a 1 × 128 row.
  Both hidden layers of the reference are this layer of the quotient form of the mean over in-neighbours.
-/
import proofs.«137997_j10488310137590_1_alg».proof.Proof.Gen.ReferenceIdeal.Read
import proofs.«137997_j10488310137590_1_alg».proof.Proof.DenseSpec
import proofs.«137997_j10488310137590_1_alg».proof.Proof.LibPlainDot
import proofs.«137997_j10488310137590_1_alg».proof.Proof.LibHostRow
import Idealize.ShloMosaic.Lib.ValueLayout

noncomputable section

open scoped BigOperators

namespace Cert.ReferenceIdeal.Layer

open Cert.ReferenceIdeal Cert.ReferenceIdeal.Gen Cert.ReferenceIdeal.Read Idealize.ShloMosaic Idealize.ShloMosaic.ValueIdx Cert.Dense

/-- The host's dense layer of an aggregated array `A` and a feature array `H`. -/
def refLayer (A H : FVec Ideal S100000x128 .f32) (Wl : FVec Ideal S128x128 .f32) (b : FVec Ideal S128 .f32) (Wr : FVec Ideal S128x128 .f32) :
    FVec Ideal S100000x128 .f32 :=
  maximumf (addf (addf (Host.dotGeneral (F := Ideal) dot_S100000x128_S128x128_S100000x128_1_0_0_1_n_n none A Wl)
        (broadcastInDim S100000x128 ![0, 1] bcast_S1x128_S100000x128_0_1 (broadcastInDim S1x128 ![1] bcast_S128_S1x128_1 b)))
      (Host.dotGeneral (F := Ideal) dot_S100000x128_S128x128_S100000x128_1_0_0_1_n_n none H Wr))
    (broadcastInDim S100000x128 ![] bcast_S_S100000x128 (constant (F := Ideal) S_ .f32 0x00000000#32))

/-- The host's product at (r, c). -/
theorem dot_at (A : FVec Ideal S100000x128 .f32) (W : FVec Ideal S128x128 .f32) (r : Fin 100000) (c : Fin 128) :
    Host.dotGeneral (F := Ideal) dot_S100000x128_S128x128_S100000x128_1_0_0_1_n_n none A W (ix2 r c) = ∑ k : Fin 128, A (ix2 r k) * W (ix2 k c) :=
  PlainDot.dotGeneral_apply (M := 100000) (K := 128) (N := 128) none .single A W r c

/-- The host's layer is the one dense-layer function, the bias read as a row. -/
theorem refLayer_eq (A H : FVec Ideal S100000x128 .f32) (Wl : FVec Ideal S128x128 .f32) (b : FVec Ideal S128 .f32) (Wr : FVec Ideal S128x128 .f32)
    (hsc : (⟨1, ![128]⟩ : Shape).ShapeCasts ⟨2, ![1, 128]⟩) :
    refLayer A H Wl b Wr = layer A H Wl (shapeCast ⟨2, ![1, 128]⟩ b hsc) Wr := by
  funext i
  obtain ⟨r, c, rfl⟩ : ∃ (r : Fin 100000) (c : Fin 128), i = ix2 r c := ⟨i 0, i 1, eq_ix2 i⟩
  rw [layer_ix2]
  unfold refLayer layerAt
  show max ((_ + _) + _) (Ideal.ofBits .f32 0x00000000#32) = _
  rw [dot_at A Wl r c, dot_at H Wr r c, Cert.Lib.HostRow.row_down_rows_apply bcast_S128_S1x128_1 bcast_S1x128_S100000x128_0_1 b r c,
    shapeCast_a_1a_apply b hsc (0 : Fin 1) c, add_right_comm]

/-- The reference's first hidden layer is the layer of the quotient mean of the input features. -/
theorem v28_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v28 (F := Ideal) x0 x1 x3 x4 x5 = refLayer (val_main_v21 (F := Ideal) x0 x1) x0 x3 x4 x5 := rfl

/-- The reference's second hidden layer is the layer of the quotient mean of the first. -/
theorem v48_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v48 (F := Ideal) x0 x1 x3 x4 x5 x6 x7 x8
      = refLayer (val_main_v41 (F := Ideal) x0 x1 x3 x4 x5) (val_main_v28 (F := Ideal) x0 x1 x3 x4 x5) x6 x7 x8 := rfl

end Cert.ReferenceIdeal.Layer

end
-- ==== Proof.AggBridge.lean ====
/-
  The mean over in-neighbours, two spellings. One program multiplies the neighbour sum by the reciprocal of the clamped
  in-degree, the other divides the neighbour sum by the clamped in-degree. The clamped degree is at least one, so it is not
  zero, and off zero the quotient a / d of extended reals IS a · d⁻¹ = a · (1 · d⁻¹) = a · (1 / d): the two agree at every
  entry, whatever the neighbour sum is (finite or not).
-/
import proofs.«137997_j10488310137590_1_alg».proof.Proof.KernelStages
import Idealize.ShloMosaic.Lib.IdealHost
import Idealize.ShloMosaic.Lib.Pipeline.Value

noncomputable section

namespace Cert.KernelIdeal.Stages

open Cert.KernelIdeal Cert.KernelIdeal.Gen Idealize.ShloMosaic Idealize.ShloMosaic.ValueIdx

/-- The mean over in-neighbours as a quotient: the neighbour sum over the clamped in-degree spread along the rows. -/
def aggDiv (s d : IVec S1600000 32) (h : FVec Ideal S100000x128 .f32) : FVec Ideal S100000x128 .f32 :=
  Host.divf (F := Ideal) (nbrSum (F := Ideal) s d h)
    (broadcastInDim S100000x128 ![0, 1] bcast_S100000x1_S100000x128_0_1 (broadcastInDim S100000x1 ![0] bcast_S100000_S100000x1_0 (degree (F := Ideal) d : FVec Ideal S100000 .f32)))

/-- Off a zero divisor, multiplying by the reciprocal is dividing. -/
theorem mul_recip (a d : EReal) (hd : d ≠ 0) : a * Ideal.div 1 d = Ideal.div a d := by
  unfold Ideal.div
  rw [if_neg hd, if_neg hd, one_mul]

/-- Any per-node vector clamped below by one is nowhere zero. -/
theorem clamp_ne_zero (v : FVec Ideal S100000 .f32) (j : S100000.Idx) :
    (maximumf (broadcastInDim S100000 ![] bcast_S_S100000 (id (constant (F := Ideal) S_ .f32 0x3F800000#32))) v : FVec Ideal S100000 .f32) j ≠ 0 := by
  have h1 : (1 : EReal) ≤ (maximumf (broadcastInDim S100000 ![] bcast_S_S100000 (id (constant (F := Ideal) S_ .f32 0x3F800000#32))) v : FVec Ideal S100000 .f32) j := by
    rw [maximumf_apply]
    show (1 : EReal) ≤ max (Ideal.ofBits .f32 0x3F800000#32) (v j)
    rw [Ideal.ofBits_one_f32]
    exact le_max_left _ _
  have h01 : (0 : EReal) < 1 := by exact_mod_cast (zero_lt_one : (0 : ℝ) < 1)
  intro h0
  rw [h0] at h1
  exact absurd h1 (not_le.mpr h01)

/-- A per-node vector made a column and spread along the 128 features reads, at (r, c), the vector at r. -/
theorem col_rows_apply {α : Type} (u : S100000.Idx → α) (i : S100000x128.Idx) :
    broadcastInDim S100000x128 ![0, 1] bcast_S100000x1_S100000x128_0_1 (broadcastInDim S100000x1 ![0] bcast_S100000_S100000x1_0 u) i
      = u (ix1 (⟨(i 0).val, idx2_lt0 i⟩ : Fin 100000)) := by
  refine (broadcastInDim_apply _ bcast_S100000x1_S100000x128_0_1 _ i (ix2 (⟨(i 0).val, idx2_lt0 i⟩ : Fin 100000) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 u _ (ix1 (⟨(i 0).val, idx2_lt0 i⟩ : Fin 100000)) (fun a => match a with
    | ⟨0, _⟩ => by show (i 0).val = if (100000 : Nat) = 1 then 0 else (i 0).val; rw [if_neg (by decide)])

/-- At every entry: an array times the spread reciprocal of a nowhere-zero per-node vector is the array over that vector spread. -/
theorem mean_pointwise (S : FVec Ideal S100000x128 .f32) (dg : FVec Ideal S100000 .f32) (hdg : ∀ j, dg j ≠ 0) (i : S100000x128.Idx) :
    (mulf S (broadcastInDim S100000x128 ![0, 1] bcast_S100000x1_S100000x128_0_1 (broadcastInDim S100000x1 ![0] bcast_S100000_S100000x1_0
        (Host.divf (F := Ideal) (broadcastInDim S100000 ![] bcast_S_S100000 (constant (F := Ideal) S_ .f32 0x3F800000#32)) dg))) : FVec Ideal S100000x128 .f32) i
      = (Host.divf (F := Ideal) S (broadcastInDim S100000x128 ![0, 1] bcast_S100000x1_S100000x128_0_1 (broadcastInDim S100000x1 ![0] bcast_S100000_S100000x1_0 dg)) : FVec Ideal S100000x128 .f32) i := by
  rw [mulf_apply, hostDivf_apply, col_rows_apply, col_rows_apply, hostDivf_apply]
  show S i * Ideal.div (Ideal.ofBits .f32 0x3F800000#32) (dg _) = Ideal.div (S i) (dg _)
  rw [Ideal.ofBits_one_f32]
  exact mul_recip _ _ (hdg _)

/-- The two spellings of the mean agree. -/
theorem aggMul_eq_aggDiv (s d : IVec S1600000 32) (h : FVec Ideal S100000x128 .f32) :
    aggMul (F := Ideal) s d (invDegCol (F := Ideal) d) h = aggDiv s d h := by
  funext i
  unfold aggMul aggDiv invDegCol
  exact mean_pointwise _ _ (fun j => by unfold degree; exact clamp_ne_zero _ j) i

end Cert.KernelIdeal.Stages

end
-- ==== Proof.Bridge.lean ====
/-
  The reference's result is the kernel program's function of the arguments. Layer by layer: the reference's mean over
  in-neighbours (a quotient by the clamped degree) is the kernel's (a product with its reciprocal); the reference's dense
  layer (bias added before the second product) is the kernel's (bias added last); and the pooling and the last affine map are
  the same operations on both sides.
-/
import proofs.«137997_j10488310137590_1_alg».proof.Proof.RefLayer
import proofs.«137997_j10488310137590_1_alg».proof.Proof.AggBridge
import proofs.«137997_j10488310137590_1_alg».proof.Proof.KernelSpec

noncomputable section

namespace Cert.Bridge

open Idealize.ShloMosaic Cert.Dense
open Cert.ReferenceIdeal.Read Cert.ReferenceIdeal.Layer
open Cert.KernelIdeal.Stages Cert.KernelIdeal.Result

variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal))
  (x5 x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal))
  (x9 : (⟨Cert.ReferenceIdeal.S128x1, .f32⟩ : BufTy).Contents (Elt Ideal)) (x10 : (⟨Cert.ReferenceIdeal.S1, .f32⟩ : BufTy).Contents (Elt Ideal))

/-- The reference's first mean over in-neighbours is the kernel's. -/
theorem agg1 : val_main_v21 (F := Ideal) x0 x1
    = aggMul (F := Ideal) (srcRow (F := Ideal) x1) (dstRow (F := Ideal) x1) (invDegCol (F := Ideal) (dstRow (F := Ideal) x1)) x0 :=
  (show val_main_v21 (F := Ideal) x0 x1 = aggDiv (srcRow (F := Ideal) x1) (dstRow (F := Ideal) x1) x0 from rfl).trans
    (aggMul_eq_aggDiv _ _ _).symm

/-- The first hidden layers agree. -/
theorem h1_eq : val_main_v28 (F := Ideal) x0 x1 x3 x4 x5 = hidden1 x0 x1 x3 x4 x5 := by
  rw [v28_eq, refLayer_eq _ _ _ _ _ Cert.KernelIdeal.Facts₀.shapeCasts_S128_S1x128, agg1]
  rfl

/-- The reference's second mean over in-neighbours is the kernel's, of the first hidden layer. -/
theorem agg2 : val_main_v41 (F := Ideal) x0 x1 x3 x4 x5
    = aggMul (F := Ideal) (srcRow (F := Ideal) x1) (dstRow (F := Ideal) x1) (invDegCol (F := Ideal) (dstRow (F := Ideal) x1)) (hidden1 x0 x1 x3 x4 x5) := by
  have h : val_main_v41 (F := Ideal) x0 x1 x3 x4 x5
      = aggDiv (srcRow (F := Ideal) x1) (dstRow (F := Ideal) x1) (val_main_v28 (F := Ideal) x0 x1 x3 x4 x5) := rfl
  rw [h, h1_eq]
  exact (aggMul_eq_aggDiv _ _ _).symm

/-- The second hidden layers agree. -/
theorem h2_eq : val_main_v48 (F := Ideal) x0 x1 x3 x4 x5 x6 x7 x8 = hidden2 (hidden1 x0 x1 x3 x4 x5) x1 x6 x7 x8 := by
  rw [v48_eq, refLayer_eq _ _ _ _ _ Cert.KernelIdeal.Facts₀.shapeCasts_S128_S1x128, agg2, h1_eq]
  rfl

/-- The results agree: the reference's last stage is the kernel program's tail of the second hidden layer. -/
theorem result_eq : val_main_v64 (F := Ideal) x0 x1 x2 x3 x4 x5 x6 x7 x8 x9 x10
    = tail (F := Ideal) x2 x9 x10 (hidden2 (hidden1 x0 x1 x3 x4 x5) x1 x6 x7 x8) := by
  have h : val_main_v64 (F := Ideal) x0 x1 x2 x3 x4 x5 x6 x7 x8 x9 x10
      = tail (F := Ideal) x2 x9 x10 (val_main_v48 (F := Ideal) x0 x1 x3 x4 x5 x6 x7 x8) := rfl
  rw [h, h2_eq]

end Cert.Bridge

end
-- ==== Proof.lean ====
/-
  The certificate of the two-layer neighbour-mean network with a per-graph mean pool: the kernel program (two dense-layer
  regions among host stretches) against the plain host reference, over the extended reals.

  Both programs compute, per layer, the mean of each node's in-neighbours' features and a dense layer of it and of the
  features, rectified; then the mean per graph and one last affine map. They differ in two places only. The mean: the kernel
  program multiplies the neighbour sum by the reciprocal of the clamped in-degree, the reference divides by the clamped
  in-degree; the clamped degree is at least one, and off zero a · (1 / d) = a / d for every extended real a. The dense
  layer: the kernel adds the two products first and the bias last, the reference adds the bias to the first product and
  then the second product — one sum of three terms, re-associated. Everything else is the same operations on the same
  values, so no finiteness of the inputs is used.

  The frames of the two kernel programs are the generated ones; the reference's frame and run are the generated run of its
  host operations. The kernel program's result is read off the run of @main's segments: each region's output array is the
  dense layer of the arrays the region finds (point t of the grid writes rows 5000·t … 5000·t + 4999), and the host stretches
  are followed buffer by buffer.
-/
import proofs.«137997_j10488310137590_1_alg».proof.Defs
import proofs.«137997_j10488310137590_1_alg».proof.Proof.Gen.Kernel
import proofs.«137997_j10488310137590_1_alg».proof.Proof.Gen.Kernel.Skeleton
import proofs.«137997_j10488310137590_1_alg».proof.Proof.Gen.Kernel.Launch
import proofs.«137997_j10488310137590_1_alg».proof.Proof.Gen.Kernel.Points
import proofs.«137997_j10488310137590_1_alg».proof.Proof.Gen.Kernel.Frame
import proofs.«137997_j10488310137590_1_alg».proof.Proof.Gen.KernelIdeal
import proofs.«137997_j10488310137590_1_alg».proof.Proof.Gen.KernelIdeal.Skeleton
import proofs.«137997_j10488310137590_1_alg».proof.Proof.Gen.KernelIdeal.Launch
import proofs.«137997_j10488310137590_1_alg».proof.Proof.Gen.KernelIdeal.Points
import proofs.«137997_j10488310137590_1_alg».proof.Proof.Gen.KernelIdeal.Frame
import proofs.«137997_j10488310137590_1_alg».proof.Proof.Gen.ReferenceIdeal
import proofs.«137997_j10488310137590_1_alg».proof.Proof.Gen.Pre_finite_inputs
import proofs.«137997_j10488310137590_1_alg».proof.Proof.Gen.ReferenceIdeal.Run
import proofs.«137997_j10488310137590_1_alg».proof.Proof.Gen.ReferenceIdeal.Read
import proofs.«137997_j10488310137590_1_alg».proof.Proof.KernelValue
import proofs.«137997_j10488310137590_1_alg».proof.Proof.Bridge
import Idealize.ShloMosaic.Adequacy
import Idealize.ShloMosaic.Init

noncomputable section

namespace Cert.Proof

open Idealize.ShloMosaic Idealize.ShloMosaic.TcCoe Idealize.SL.Sem

section Claims

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the kernel program's function of the arguments in their result buffers. -/
theorem algebraic : Cert.algebraic_KernelIdeal_ReferenceIdeal := by
  intro m ρ m' ρ' _ hagree
  refine ⟨fun c => Cert.KernelIdeal.Stages.tail (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (Cert.KernelIdeal.Result.hidden2 (Cert.KernelIdeal.Result.hidden1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), ?_, ?_⟩
  · exact (θ_run Cert.KernelIdeal.defs _ _).mono (fun r h c => ⟨(h c).1.trans (Cert.KernelIdeal.Result.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v64_eq, a0, a1, a2, a3, a4, a5, a6, a7, a8, a9, a10]
    exact Cert.Bridge.result_eq _ _ _ _ _ _ _ _ _ _ _

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
